-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128x64 : Shape := ⟨2, ![128, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  main_v18

def fn {F : FTy → Type} [FloatOps F] (main_arg0 : FVec F S50000x128 .f32) (main_arg1 : IVec S800000 32) (main_arg2 : IVec S800000 32) (main_arg3 : FVec F S800000 .f32) (main_arg4 : FVec F S128x128 .f32) (main_arg5 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_v13 main_v16
-- ==== Kernel.lean ====
abbrev S50000x128 : Shape := ⟨2, ![50000, 128]⟩
abbrev S800000 : Shape := ⟨1, ![800000]⟩
abbrev S128x128 : Shape := ⟨2, ![128, 128]⟩
abbrev S128x64 : Shape := ⟨2, ![128, 64]⟩
abbrev S800000x1 : Shape := ⟨2, ![800000, 1]⟩
abbrev S_ : Shape := ⟨0, ![]⟩
abbrev S800000x128 : Shape := ⟨2, ![800000, 128]⟩
abbrev S5000x128 : Shape := ⟨2, ![5000, 128]⟩
abbrev S50000x64 : Shape := ⟨2, ![50000, 64]⟩
abbrev S2000x128 : Shape := ⟨2, ![2000, 128]⟩
abbrev S2000x64 : Shape := ⟨2, ![2000, 64]⟩
abbrev S2000 : Shape := ⟨1, ![2000]⟩
abbrev S2000x1 : Shape := ⟨2, ![2000, 1]⟩

abbrev nBuf : Space → Nat
  | .hbm => 40
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128x64, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x128, .f32⟩
  | .hbm, ⟨23, _⟩ => ⟨S800000x1, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S800000x128, .f32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S2000x128, .f32⟩
  | .local _ .vmem, ⟨6, _⟩ => ⟨S2000x128, .f32⟩
  | .local _ .vmem, ⟨7, _⟩ => ⟨S128x64, .f32⟩
  | .local _ .vmem, ⟨8, _⟩ => ⟨S2000x64, .f32⟩
  | .local _ .vmem, ⟨9, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  reduces_S2000x64_S2000 : S2000x64.Reduces [1] S2000
  shapeCasts_S2000_S2000x1 : S2000.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128x64 : Shape := ⟨2, ![128, 64]⟩
abbrev S800000x1 : Shape := ⟨2, ![800000, 1]⟩
abbrev S_ : Shape := ⟨0, ![]⟩
abbrev S800000x128 : Shape := ⟨2, ![800000, 128]⟩
abbrev S50000x64 : Shape := ⟨2, ![50000, 64]⟩
abbrev S50000 : Shape := ⟨1, ![50000]⟩
abbrev S50000x1 : Shape := ⟨2, ![50000, 1]⟩

abbrev nBuf : Space → Nat
  | .hbm => 57
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128x64, .f32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x128, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x128, .f32⟩
  | .hbm, ⟨23, _⟩ => ⟨S_, .f32⟩
  | .hbm, ⟨24, _⟩ => ⟨S50000x128, .f32⟩
  | .hbm, ⟨25, _⟩ => ⟨S50000x128, .f32⟩
  | .hbm, ⟨26, _⟩ => ⟨S800000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S800000x128, .f32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S50000x64, .f32⟩
  | .hbm, ⟨43, _⟩ => ⟨S_, .f32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000x1, .f32⟩
  | .hbm, ⟨49, _⟩ => ⟨S50000x64, .f32⟩
  | .hbm, ⟨50, _⟩ => ⟨S50000x64, .f32⟩
  | .hbm, ⟨51, _⟩ => ⟨S50000x64, .f32⟩
  | .hbm, ⟨52, _⟩ => ⟨S_, .f32⟩
  | .hbm, ⟨53, _⟩ => ⟨S50000, .f32⟩
  | .hbm, ⟨54, _⟩ => ⟨S50000x1, .f32⟩
  | .hbm, ⟨55, _⟩ => ⟨S50000x64, .f32⟩
  | .hbm, ⟨56, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  reducesTo_S50000x64_S50000_d1 : S50000x64.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  A two-layer graph convolution, entry by entry, on the extended reals.

  A layer first aggregates its input over the edges of the graph (the same gather, scale and segment sum in both
  programs, never opened here) and then multiplies by a weight matrix. The first layer ends with max(., 0); the second
  with a softmax along each row: exp (l - m) divided by the row's sum of exp (l - m), m the row's maximum (joined
  once more with -inf, as jax spells it). Everything after the aggregation works row by row: entry (p, q) of a layer's
  result depends on row p of its input alone. That is what lets a program that treats the rows in blocks of 5000 or
  2000 at a time and a program that treats all 50000 at once agree.

  Here: the product's entry, the two layers as functions of an index, and the lemma that a block of rows gives the same
  entries as the whole matrix.
-/
import Idealize.ShloMosaic.PureOps.Ideal
import Idealize.ShloMosaic.Lib.ValueIdx

noncomputable section

namespace Cert.Gcn

open Idealize.ShloMosaic Idealize.ShloMosaic.ValueIdx

/-- The f32 word of -inf, as the extended real it denotes (left uninterpreted: both programs spell the same word). -/
abbrev negInfW : EReal := Ideal.ofBits .f32 0xFF800000#32
/-- The f32 word of 0. -/
abbrev zeroW : EReal := Ideal.ofBits .f32 0x00000000#32

variable {M M' K N : Nat}

/-- Entry (p, q) of the product X * W: the sum over the contracted coordinate. -/
def prodAt (X : FVec Ideal ⟨2, ![M, K]⟩ .f32) (W : FVec Ideal ⟨2, ![K, N]⟩ .f32) (p : Fin M) (q : Fin N) : EReal :=
  ∑ k : Fin K, X (ix2 p k) * W (ix2 k q)

/-- Entry (p, q) of max(X * W, 0). -/
def reluAt (X : FVec Ideal ⟨2, ![M, K]⟩ .f32) (W : FVec Ideal ⟨2, ![K, N]⟩ .f32) (p : Fin M) (q : Fin N) : EReal :=
  max (prodAt X W p q) zeroW

/-- The maximum of row p of X * W, joined with -inf as both programs do. -/
def rowTop (X : FVec Ideal ⟨2, ![M, K]⟩ .f32) (W : FVec Ideal ⟨2, ![K, N]⟩ .f32) (p : Fin M) : EReal :=
  max negInfW ((Finset.univ : Finset (Fin N)).fold max negInfW fun j => prodAt X W p j)

/-- exp of entry (p, q) of X * W less its row's maximum. -/
def expAt (X : FVec Ideal ⟨2, ![M, K]⟩ .f32) (W : FVec Ideal ⟨2, ![K, N]⟩ .f32) (p : Fin M) (q : Fin N) : EReal :=
  Ideal.exp (prodAt X W p q - rowTop X W p)

/-- Entry (p, q) of the row softmax of X * W. -/
def softmaxAt (X : FVec Ideal ⟨2, ![M, K]⟩ .f32) (W : FVec Ideal ⟨2, ![K, N]⟩ .f32) (p : Fin M) (q : Fin N) : EReal :=
  Ideal.div (expAt X W p q) (∑ j : Fin N, expAt X W p j)

/-- max(X * W, 0) as an array. -/
def reluLayer (X : FVec Ideal ⟨2, ![M, K]⟩ .f32) (W : FVec Ideal ⟨2, ![K, N]⟩ .f32) : FVec Ideal ⟨2, ![M, N]⟩ .f32 :=
  fun i => reluAt X W (i 0) (i 1)

/-- The row softmax of X * W as an array. -/
def softmaxLayer (X : FVec Ideal ⟨2, ![M, K]⟩ .f32) (W : FVec Ideal ⟨2, ![K, N]⟩ .f32) : FVec Ideal ⟨2, ![M, N]⟩ .f32 :=
  fun i => softmaxAt X W (i 0) (i 1)

theorem reluLayer_ix2 (X : FVec Ideal ⟨2, ![M, K]⟩ .f32) (W : FVec Ideal ⟨2, ![K, N]⟩ .f32) (p : Fin M) (q : Fin N) :
    reluLayer X W (ix2 p q) = reluAt X W p q := rfl

theorem softmaxLayer_ix2 (X : FVec Ideal ⟨2, ![M, K]⟩ .f32) (W : FVec Ideal ⟨2, ![K, N]⟩ .f32) (p : Fin M) (q : Fin N) :
    softmaxLayer X W (ix2 p q) = softmaxAt X W p q := rfl

/-! ## A block of rows gives the whole matrix's entries

X' is a matrix whose row p is row r of X, and W' has the entries of W. -/

section Rows

variable (X : FVec Ideal ⟨2, ![M, K]⟩ .f32) (X' : FVec Ideal ⟨2, ![M', K]⟩ .f32) (W W' : FVec Ideal ⟨2, ![K, N]⟩ .f32)
  (p : Fin M') (r : Fin M) (hX : ∀ k, X' (ix2 p k) = X (ix2 r k)) (hW : ∀ k j, W' (ix2 k j) = W (ix2 k j))

include hX hW

theorem prodAt_rows (q : Fin N) : prodAt X' W' p q = prodAt X W r q :=
  Finset.sum_congr rfl fun k _ => by rw [hX k, hW k q]

theorem reluAt_rows (q : Fin N) : reluAt X' W' p q = reluAt X W r q := by
  unfold reluAt; rw [prodAt_rows X X' W W' p r hX hW q]

theorem rowTop_rows : rowTop X' W' p = rowTop X W r := by
  unfold rowTop
  rw [show (fun j => prodAt X' W' p j) = fun j => prodAt X W r j from funext (prodAt_rows X X' W W' p r hX hW)]

theorem expAt_rows (q : Fin N) : expAt X' W' p q = expAt X W r q := by
  unfold expAt; rw [prodAt_rows X X' W W' p r hX hW q, rowTop_rows X X' W W' p r hX hW]

theorem softmaxAt_rows (q : Fin N) : softmaxAt X' W' p q = softmaxAt X W r q := by
  unfold softmaxAt
  rw [expAt_rows X X' W W' p r hX hW q,
    show (fun j => expAt X' W' p j) = fun j => expAt X W r j from funext (expAt_rows X X' W W' p r hX hW)]

end Rows

end Cert.Gcn

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibBlockLayout.lean ====
/-
  Layout operations and row reductions read at an index given by coordinates, in the forms a kernel that works on one
  block of a larger array meets:
    [1, 1, a, b, c] cast to [a, b, c]        reads (i, j, k) at (0, 0, i, j, k);
    [a, b, c]       cast to [1, 1, a, b, c]  reads (u, v, i, j, k) at (i, j, k);
    [a, b]          cast to [1, 1, a, b]     reads (u, v, i, j) at (i, j);
  (each pair of indices has the same row-major position, the unit coordinates contributing nothing), and, at the exact
  values, the maximum of [a, b, c] over its trailing axis at (p, q) as the fold of max over k of the source at (p, q, k);
  the sum and the maximum of [a, b] over its trailing axis at p as the sum, or the fold of max, over k of the source at
  (p, k).
-/
import Idealize.ShloMosaic.Lib.ValueLayout
import Idealize.ShloMosaic.PureOps.Reduce
import Idealize.ShloMosaic.PureOps.Ideal.Laws

namespace Cert.BlockLayout

open Idealize.ShloMosaic Idealize.ShloMosaic.ValueIdx

variable {α : Type}

/-- A `[1, 1, a, b, c]` array cast to `[a, b, c]` reads, at `(i, j, k)`, the operand at `(0, 0, i, j, k)`. -/
theorem shapeCast_11abc_abc_apply {a b c : ℕ} (x : (⟨5, ![1, 1, a, b, c]⟩ : Shape).Idx → α)
    (h : (⟨5, ![1, 1, a, b, c]⟩ : Shape).ShapeCasts ⟨3, ![a, b, c]⟩) (i : Fin a) (j : Fin b) (k : Fin c) :
    shapeCast ⟨3, ![a, b, c]⟩ x h (ix3 i j k) = x (ix5 (0 : Fin 1) (0 : Fin 1) i j k) :=
  shapeCast_apply x h _ _ (by
    rw [Shape.rowMajor_val_three, Shape.rowMajor_val_five]
    show (((0 * 1 + 0) * a + i.val) * b + j.val) * c + k.val = (i.val * b + j.val) * c + k.val
    simp)

/-- An `[a, b, c]` array cast to `[1, 1, a, b, c]` reads, at `(u, v, i, j, k)`, the operand at `(i, j, k)`, whatever
    the two unit coordinates. -/
theorem shapeCast_abc_11abc_apply {a b c : ℕ} (x : (⟨3, ![a, b, c]⟩ : Shape).Idx → α)
    (h : (⟨3, ![a, b, c]⟩ : Shape).ShapeCasts ⟨5, ![1, 1, a, b, c]⟩) (u v : Fin 1) (i : Fin a) (j : Fin b) (k : Fin c) :
    shapeCast ⟨5, ![1, 1, a, b, c]⟩ x h (ix5 u v i j k) = x (ix3 i j k) :=
  shapeCast_apply x h _ _ (by
    have hu : u.val = 0 := by omega
    have hv : v.val = 0 := by omega
    rw [Shape.rowMajor_val_three, Shape.rowMajor_val_five]
    show (i.val * b + j.val) * c + k.val = (((u.val * 1 + v.val) * a + i.val) * b + j.val) * c + k.val
    rw [hu, hv]; simp)

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]; simp)

/-- Reducing `[a, b, c]` over its trailing axis: the source index over `(p, q)` with `k` inserted is `(p, q, k)`. -/
theorem lift_trailing3 {a b c : ℕ} (h : (⟨3, ![a, b, c]⟩ : Shape).Reduces [(2 : Fin 3)] ⟨2, ![a, b]⟩)
    (p : Fin a) (q : Fin b) (k : Fin c) : h.lift (ix2 p q) k = ix3 p q k := by
  funext ax
  apply Fin.ext
  match ax with
  | ⟨0, _⟩ => rfl
  | ⟨1, _⟩ => rfl
  | ⟨2, _⟩ => rfl

/-- At the exact values, the maximum of `[a, b, c]` over its trailing axis reads, at `(p, q)`, the fold of `max` from
    the accumulator's value over `k` of the source at `(p, q, k)`. -/
theorem multiReduction_max_trailing3 {φ : FTy} {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (p : Fin a) (q : Fin b) :
    multiReduction .maximumf [(2 : Fin 3)] ⟨2, ![a, b]⟩ src acc h hφ hacc (ix2 p q)
      = (Finset.univ : Finset (Fin c)).fold max (Ideal.ofBits φ acc) (fun k => src (ix3 p q k)) := by
  refine (Ideal.multiReduction_maximumf_single src acc h hφ hacc (ix2 p q)).trans ?_
  exact congrArg (Finset.fold max _ · Finset.univ) (funext fun k => congrArg src (lift_trailing3 h p q k))

/-- Reducing `[a, b]` over its trailing axis: the source index over `p` with `k` inserted is `(p, k)`. -/
theorem lift_trailing2 {a b : ℕ} (h : (⟨2, ![a, b]⟩ : Shape).Reduces [(1 : Fin 2)] ⟨1, ![a]⟩)
    (p : Fin a) (k : Fin b) : h.lift (ix1 p) k = ix2 p k := by
  funext ax
  apply Fin.ext
  match ax with
  | ⟨0, _⟩ => rfl
  | ⟨1, _⟩ => rfl

/-- At the exact values, a float sum of `[a, b]` over its trailing axis reads, at `p`, the sum over `k` of the source at
    `(p, k)`. -/
theorem multiReduction_add_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (p : Fin a) :
    multiReduction .add [(1 : Fin 2)] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_trailing2 h p k)

/-- At the exact values, the maximum of `[a, b]` over its trailing axis reads, at `p`, the fold of `max` from the
    accumulator's value over `k` of the source at `(p, k)`. -/
theorem multiReduction_max_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (p : Fin a) :
    multiReduction .maximumf [(1 : Fin 2)] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  exact congrArg (Finset.fold max _ · Finset.univ) (funext fun k => congrArg src (lift_trailing2 h p k))

end Cert.BlockLayout
-- ==== Proof.LibSoftmaxSteps.lean ====
/-
  A kernel body's row softmax of a block of logits [a, b], read at an entry, at the exact values.

  The body spells jax.nn.softmax along the last axis as: the row maximum (a max-reduction from -inf, joined once more
  with -inf), re-laid as a column and spread back over the row; subtract; exp; the row sum, re-laid as a column and
  spread back; divide. Read at (p, q) that is exp (L(p,q) - m) over the sum along row p of exp (L(p,j) - m), with m the
  fold of max from -inf over row p, joined with -inf. The f32 word of -inf is left uninterpreted (a program on the other
  side spells the same word), and the side conditions of the layout steps are parameters, so a printed program's own
  proofs of them are accepted as they are.
-/
import proofs.«109420_j4020089389121_2_alg».proof.Proof.LibKeepdims
import proofs.«109420_j4020089389121_2_alg».proof.Proof.LibBlockLayout

noncomputable section

namespace Cert.Lib.SoftmaxSteps

open Idealize.ShloMosaic Idealize.ShloMosaic.ValueIdx

/-- A block of logits L [a, b] put through the body's softmax steps (row maximum joined with -inf, kept as a column and
    spread back over the row; subtract; exp; row sum kept as a column and spread back; divide), read at entry (p, q):
    exp (L(p,q) - m) over the row's sum of exp (L(p,j) - m), m the row's maximum joined with -inf. -/
theorem softmaxSteps_apply {a b : Nat} (L : FVec Ideal ⟨2, ![a, b]⟩ .f32)
    (hr : (⟨2, ![a, b]⟩ : Shape).Reduces [(1 : Fin 2)] ⟨1, ![a]⟩)
    (hc : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec 32) = FKind.maximumf.neutral .f32 hφ)
    (hadd : (0x00000000#32 : BitVec 32) = FKind.add.neutral .f32 hφ) (p : Fin a) (q : Fin b) :
    divf (exp (subf L (broadcastTo ⟨2, ![a, b]⟩ (shapeCast ⟨2, ![a, 1]⟩ (maximumf (broadcast ⟨1, ![a]⟩ (Scalar.ofBits (F := Ideal) .f32 0xFF800000#32))
          (multiReduction .maximumf [(1 : Fin 2)] ⟨1, ![a]⟩ L 0xFF800000#32 hr hφ hmax)) hc) hb)))
        (broadcastTo ⟨2, ![a, b]⟩ (shapeCast ⟨2, ![a, 1]⟩ (multiReduction .add [(1 : Fin 2)] ⟨1, ![a]⟩
          (exp (subf L (broadcastTo ⟨2, ![a, b]⟩ (shapeCast ⟨2, ![a, 1]⟩ (maximumf (broadcast ⟨1, ![a]⟩ (Scalar.ofBits (F := Ideal) .f32 0xFF800000#32))
            (multiReduction .maximumf [(1 : Fin 2)] ⟨1, ![a]⟩ L 0xFF800000#32 hr hφ hmax)) hc) hb)))
          0x00000000#32 hr hφ hadd) hc) hb) (ix2 p q)
      = Ideal.div (Ideal.exp (L (ix2 p q) - max (Ideal.ofBits .f32 0xFF800000#32) ((Finset.univ : Finset (Fin b)).fold max (Ideal.ofBits .f32 0xFF800000#32) fun k => L (ix2 p k))))
          (∑ j : Fin b, Ideal.exp (L (ix2 p j) - max (Ideal.ofBits .f32 0xFF800000#32) ((Finset.univ : Finset (Fin b)).fold max (Ideal.ofBits .f32 0xFF800000#32) fun k => L (ix2 p k)))) := by
  generalize htop : broadcastTo ⟨2, ![a, b]⟩ (shapeCast ⟨2, ![a, 1]⟩ (maximumf (broadcast ⟨1, ![a]⟩ (Scalar.ofBits (F := Ideal) .f32 0xFF800000#32))
          (multiReduction .maximumf [(1 : Fin 2)] ⟨1, ![a]⟩ L 0xFF800000#32 hr hφ hmax)) hc) hb = top
  have htop' : ∀ j : Fin b, top (ix2 p j) = max (Ideal.ofBits .f32 0xFF800000#32) ((Finset.univ : Finset (Fin b)).fold max (Ideal.ofBits .f32 0xFF800000#32) fun k => L (ix2 p k)) := by
    intro j
    subst htop
    refine (Cert.Keepdims.broadcastTo_a1_ab_apply _ hb p j).trans ?_
    refine (Cert.Keepdims.shapeCast_a_a1_apply _ hc p 0).trans ?_
    refine congrArg₂ max rfl ?_
    exact Cert.BlockLayout.multiReduction_max_trailing2 L _ hr hφ hmax p
  have he : ∀ j : Fin b, exp (subf L top) (ix2 p j)
      = Ideal.exp (L (ix2 p j) - max (Ideal.ofBits .f32 0xFF800000#32) ((Finset.univ : Finset (Fin b)).fold max (Ideal.ofBits .f32 0xFF800000#32) fun k => L (ix2 p k))) := by
    intro j
    show Ideal.exp (L (ix2 p j) - top (ix2 p j)) = _
    rw [htop' j]
  refine congrArg₂ Ideal.div (he q) ?_
  refine (Cert.Keepdims.broadcastTo_a1_ab_apply _ hb p q).trans ?_
  refine (Cert.Keepdims.shapeCast_a_a1_apply _ hc p 0).trans ?_
  refine (Cert.BlockLayout.multiReduction_add_trailing2 _ _ hr hφ hadd p).trans ?_
  exact Finset.sum_congr rfl fun j _ => he j

end Cert.Lib.SoftmaxSteps

end
-- ==== Proof.Payload.lean ====
/-
  What each kernel body computes on one block of rows, read entry by entry at the exact values: the first body's
  result block is max(X * W, 0) of its row block X, the second body's the row softmax of X * W. The roundings to bf16
  on the way into the matrix unit are the identity on extended reals, and the matrix unit's accumulator starts from zero,
  so each product entry is the plain sum over the contracted coordinate.
-/
import proofs.«109420_j4020089389121_2_alg».proof.Proof.Gen.KernelIdeal.Skeleton
import proofs.«109420_j4020089389121_2_alg».proof.Proof.Spec
import proofs.«109420_j4020089389121_2_alg».proof.Proof.LibContractPlain
import proofs.«109420_j4020089389121_2_alg».proof.Proof.LibSoftmaxSteps
import Idealize.ShloMosaic.Lib.Pipeline.Value

noncomputable section

namespace Cert.KernelIdeal.Payload

open Cert.KernelIdeal Cert.KernelIdeal.Gen Idealize.ShloMosaic Idealize.ShloMosaic.ValueIdx Cert.Gcn

/-- The first body's stored block: entry (p, q) is max of the product's entry and 0. -/
theorem pay0_eq (x0 : Vec Ideal S5000x128 .f32) (x1 : Vec Ideal S128x128 .f32) :
    k0_pay1 (F := Ideal) x0 x1 = reluLayer x0 x1 := by
  funext j
  obtain ⟨p, q, rfl⟩ : ∃ (p : Fin 5000) (q : Fin 128), j = ix2 p q := ⟨j 0, j 1, eq_ix2 j⟩
  rw [reluLayer_ix2]
  unfold k0_pay1 reluAt prodAt
  refine congrArg₂ max ?_ rfl
  refine (Cert.Lib.ContractPlain.matmulZero_apply dot_S5000x128_S128x128_S5000x128_1_0_0_1_n_n rfl none _ _ p q).trans ?_
  refine Finset.sum_congr rfl fun k _ => ?_
  show shapeCast S5000x128 x0 _ (ix2 p k) * x1 (ix2 k q) = x0 (ix2 p k) * x1 (ix2 k q)
  rw [shapeCast_self]

/-- The second body's stored block: entry (p, q) is the row softmax of the product. -/
theorem pay1_eq (x0 : Vec Ideal S2000x128 .f32) (x1 : Vec Ideal S128x64 .f32) :
    k1_pay1 (F := Ideal) x0 x1 = softmaxLayer x0 x1 := by
  funext j
  obtain ⟨p, q, rfl⟩ : ∃ (p : Fin 2000) (q : Fin 64), j = ix2 p q := ⟨j 0, j 1, eq_ix2 j⟩
  rw [softmaxLayer_ix2]
  have hL : ∀ (p : Fin 2000) (k : Fin 64),
      matmul dot_S2000x128_S128x64_S2000x64_1_0_0_1_n_n none (truncf .bf16 (shapeCast S2000x128 x0 shapeCasts_S2000x128_S2000x128) bitsLt_bf16_f32)
        (truncf .bf16 x1 bitsLt_bf16_f32) (constant (F := Ideal) S2000x64 .f32 0x00000000#32) (ix2 p k) = prodAt x0 x1 p k := by
    intro p k
    refine (Cert.Lib.ContractPlain.matmulZero_apply dot_S2000x128_S128x64_S2000x64_1_0_0_1_n_n rfl none _ _ p k).trans ?_
    refine Finset.sum_congr rfl fun c _ => ?_
    show shapeCast S2000x128 x0 _ (ix2 p c) * x1 (ix2 c k) = x0 (ix2 p c) * x1 (ix2 c k)
    rw [shapeCast_self]
  unfold k1_pay1
  refine (Cert.Lib.SoftmaxSteps.softmaxSteps_apply _ reduces_S2000x64_S2000 shapeCasts_S2000_S2000x1 broadcasts_S2000x1_S2000x64 (.inl rfl) rfl rfl p q).trans ?_
  unfold softmaxAt expAt rowTop
  simp only [hL]

end Cert.KernelIdeal.Payload

end
-- ==== Proof.Region0.lean ====
/-
  The first kernel launch, whatever its operands hold when it is entered: ten grid points, point t taking rows
  5000 t .. 5000 t + 4999 of the aggregated features and the whole first weight matrix, and writing the same rows of
  the result. Each point writes max(X * W, 0) of its row block, which is the same rows of max(X * W, 0) of the whole
  matrix; the ten row blocks tile the 50000 rows, so after the launch the result array is max(X * W, 0) entire.
-/
import proofs.«109420_j4020089389121_2_alg».proof.Proof.Gen.KernelIdeal.Frame
import proofs.«109420_j4020089389121_2_alg».proof.Proof.Payload
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-block windows move with the point, everything else stays at 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A row block's max(X * W, 0) at a local index is the whole matrix's at the index it sits at: same row of X, all of W. -/
theorem relu_block (A : FVec Ideal ⟨2, ![50000, 128]⟩ .f32) (Wt : FVec Ideal ⟨2, ![128, 128]⟩ .f32)
    (x0 : Vec Ideal S5000x128 .f32) (x1 : Vec Ideal S128x128 .f32) (y : S5000x128.Idx) (i : S50000x128.Idx)
    (hX : ∀ k : Fin 128, x0 (ix2 (y 0) k) = A (ix2 (i 0) k)) (hW : ∀ (k : Fin 128) (j : Fin 128), x1 (ix2 k j) = Wt (ix2 k j))
    (hq : y 1 = i 1) : reluLayer x0 x1 y = reluLayer A Wt i := by
  show reluAt x0 x1 (y 0) (y 1) = reluAt A Wt (i 0) (i 1)
  rw [hq]
  exact reluAt_rows A x0 Wt x1 (y 0) (i 0) hX hW (i 1)

/-- What point t writes back is its row block of max(X * W, 0) of the arrays as the launch finds them. -/
theorem flushed_eq (c : Dev nD) (t : Fin cfg0.N) :
    (dat0 V c).flushed 2 t = ((cfg0.win 2).blk t).view.read (Elt Ideal) (reluLayer (V c main_v12) (V c main_arg4)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [Payload.pay0_eq]
  obtain ⟨e0, e1, e2, e3, e4, e5⟩ := idx_facts t
  funext j
  show reluLayer (iblk0 V c 0 t) (iblk0 V c 1 t) j = reluLayer (V c main_v12) (V c main_arg4) (((cfg0.win 2).blk t).view.emb j)
  refine relu_block (V c main_v12) (V c main_arg4) (iblk0 V c 0 t) (iblk0 V c 1 t) j _ ?_ ?_ ?_
  · intro k
    show V c main_v12 (((cfg0.win 0).blk t).view.emb (ix2 (j 0) k)) = V c main_v12 (ix2 ((((cfg0.win 2).blk t).view.emb j) 0) k)
    refine congrArg (V c main_v12) (funext fun a => Fin.ext ?_)
    match a with
    | ⟨0, _⟩ => show win0_0.index t (0 : Fin 2) * 5000 + 1 * (j 0).val = win0_2.index t (0 : Fin 2) * 5000 + 1 * (j 0).val; rw [e0, e4]
    | ⟨1, _⟩ => show win0_0.index t (1 : Fin 2) * 128 + 1 * k.val = k.val; rw [e1]; omega
  · intro k q
    show V c main_arg4 (((cfg0.win 1).blk t).view.emb (ix2 k q)) = V c main_arg4 (ix2 k q)
    refine congrArg (V c main_arg4) (funext fun a => Fin.ext ?_)
    match a with
    | ⟨0, _⟩ => show win0_1.index t (0 : Fin 2) * 128 + 1 * k.val = k.val; rw [e2]; omega
    | ⟨1, _⟩ => show win0_1.index t (1 : Fin 2) * 128 + 1 * q.val = q.val; rw [e3]; omega
  · apply Fin.ext
    show (j 1).val = win0_2.index t (1 : Fin 2) * 128 + 1 * (j 1).val
    rw [e5]; omega

/-- An index of the result is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v13).slice (win0_2.rect t)).set ↔ _
  rw [View.set_slice_whole, Rect.mem_set_unit]
  exact Iff.rfl

/-- Row r of the result lies in the block of point r / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; rw [hN]; omega⟩
  obtain ⟨e0, e1, e2, e3, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- After the launch the result array is max(X * W, 0) of the operands as the launch found them. -/
theorem final (c : Dev nD) : (dat0 V c).arrAt 2 cfg0.N = reluLayer (V c main_v12) (V c main_arg4) :=
  (dat0 V c).arrAt_eq_of_cover 2 (reluLayer (V c main_v12) (V c main_arg4)) (fun t _ => flushed_eq V c t) cover

end Cert.KernelIdeal.Region0

end
-- ==== Proof.Region1.lean ====
/-
  The second kernel launch, whatever its operands hold when it is entered: twenty-five grid points, point t taking rows
  2000 t .. 2000 t + 1999 of the aggregated hidden features and the whole second weight matrix, and writing the same
  rows of the result. A row's softmax needs that row of the product only, so each point writes its rows of the row
  softmax of X * W of the whole matrix; the twenty-five row blocks tile the 50000 rows.
-/
import proofs.«109420_j4020089389121_2_alg».proof.Proof.Gen.KernelIdeal.Frame
import proofs.«109420_j4020089389121_2_alg».proof.Proof.Payload
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-block windows move with the point, everything else stays at 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A row block's softmax of X * W at a local index is the whole matrix's at the index it sits at: same row of X, all of W. -/
theorem softmax_block (A : FVec Ideal ⟨2, ![50000, 128]⟩ .f32) (Wt : FVec Ideal ⟨2, ![128, 64]⟩ .f32)
    (x0 : Vec Ideal S2000x128 .f32) (x1 : Vec Ideal S128x64 .f32) (y : S2000x64.Idx) (i : S50000x64.Idx)
    (hX : ∀ k : Fin 128, x0 (ix2 (y 0) k) = A (ix2 (i 0) k)) (hW : ∀ (k : Fin 128) (j : Fin 64), x1 (ix2 k j) = Wt (ix2 k j))
    (hq : y 1 = i 1) : softmaxLayer x0 x1 y = softmaxLayer A Wt i := by
  show softmaxAt x0 x1 (y 0) (y 1) = softmaxAt A Wt (i 0) (i 1)
  rw [hq]
  exact softmaxAt_rows A x0 Wt x1 (y 0) (i 0) hX hW (i 1)

/-- What point t writes back is its row block of the row softmax of X * W of the arrays as the launch finds them. -/
theorem flushed_eq (c : Dev nD) (t : Fin cfg1.N) :
    (dat1 V c).flushed 2 t = ((cfg1.win 2).blk t).view.read (Elt Ideal) (softmaxLayer (V c main_v26) (V c main_arg5)) := by
  show (cfg1.win 2).cut (grid1.coords t) ((dat1 V c).after 2 t) = _
  rw [after1_2]
  unfold out1_2
  rw [View.canon_unit_zero hz]
  simp only [View.ld_unit_zero (S := S2000x128) hz, View.ld_unit_zero (S := S128x64) hz]
  rw [Payload.pay1_eq]
  obtain ⟨e0, e1, e2, e3, e4, e5⟩ := idx_facts t
  funext j
  show softmaxLayer (iblk1 V c 0 t) (iblk1 V c 1 t) j = softmaxLayer (V c main_v26) (V c main_arg5) (((cfg1.win 2).blk t).view.emb j)
  refine softmax_block (V c main_v26) (V c main_arg5) (iblk1 V c 0 t) (iblk1 V c 1 t) j _ ?_ ?_ ?_
  · intro k
    show V c main_v26 (((cfg1.win 0).blk t).view.emb (ix2 (j 0) k)) = V c main_v26 (ix2 ((((cfg1.win 2).blk t).view.emb j) 0) k)
    refine congrArg (V c main_v26) (funext fun a => Fin.ext ?_)
    match a with
    | ⟨0, _⟩ => show win1_0.index t (0 : Fin 2) * 2000 + 1 * (j 0).val = win1_2.index t (0 : Fin 2) * 2000 + 1 * (j 0).val; rw [e0, e4]
    | ⟨1, _⟩ => show win1_0.index t (1 : Fin 2) * 128 + 1 * k.val = k.val; rw [e1]; omega
  · intro k q
    show V c main_arg5 (((cfg1.win 1).blk t).view.emb (ix2 k q)) = V c main_arg5 (ix2 k q)
    refine congrArg (V c main_arg5) (funext fun a => Fin.ext ?_)
    match a with
    | ⟨0, _⟩ => show win1_1.index t (0 : Fin 2) * 128 + 1 * k.val = k.val; rw [e2]; omega
    | ⟨1, _⟩ => show win1_1.index t (1 : Fin 2) * 64 + 1 * q.val = q.val; rw [e3]; omega
  · apply Fin.ext
    show (j 1).val = win1_2.index t (1 : Fin 2) * 64 + 1 * (j 1).val
    rw [e5]; omega

/-- An index of the result is in point t's block iff each coordinate is in the block's range on its axis. -/
theorem mem_blk (t : Fin cfg1.N) (i : S50000x64.Idx) :
    i ∈ ((cfg1.win 2).blk t).view.set ↔ ∀ a : Fin 2, win1_2.index t a * S2000x64.size a ≤ (i a).val ∧ (i a).val < win1_2.index t a * S2000x64.size a + S2000x64.size a := by
  show i ∈ ((View.whole main_v27).slice (win1_2.rect t)).set ↔ _
  rw [View.set_slice_whole, Rect.mem_set_unit]
  exact Iff.rfl

/-- Row r of the result lies in the block of point r / 2000. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : grid1.N = 25 := N_1
  let t : Fin cfg1.N := ⟨(i 0).val / 2000, by show (i 0).val / 2000 < grid1.N; rw [hN]; omega⟩
  obtain ⟨e0, e1, e2, e3, e4, e5⟩ := idx_facts t
  have ht : t.val = (i 0).val / 2000 := rfl
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; rw [e4, ht]; omega
  | ⟨1, _⟩ => show win1_2.index t (1 : Fin 2) * 64 ≤ (i 1).val ∧ (i 1).val < win1_2.index t (1 : Fin 2) * 64 + 64; rw [e5]; omega

/-- After the launch the result array is the row softmax of X * W of the operands as the launch found them. -/
theorem final (c : Dev nD) : (dat1 V c).arrAt 2 cfg1.N = softmaxLayer (V c main_v26) (V c main_arg5) :=
  (dat1 V c).arrAt_eq_of_cover 2 (softmaxLayer (V c main_v26) (V c main_arg5)) (fun t _ => flushed_eq V c t) cover

end Cert.KernelIdeal.Region1

end
-- ==== Proof.KernelRun.lean ====
/-
  The kernel program's run with its result array named. The program is four stretches: the aggregation of the input
  features over the graph's edges, the first launch (product with the first weight matrix, max with 0, in ten row
  blocks), the aggregation of the hidden features, the second launch (product with the second weight matrix and row
  softmax, in twenty-five row blocks). Each launch leaves the whole-matrix function of its operands (the two launch
  modules); between the launches the buffer contents are carried by the fold through the host operations. So the
  result array ends at  softmax-rows( agg( max( agg(x) * W1, 0 ) ) * W2 ),  agg the aggregation as one function.
-/
import proofs.«109420_j4020089389121_2_alg».proof.Proof.Gen.KernelIdeal.Frame
import proofs.«109420_j4020089389121_2_alg».proof.Proof.Region0
import proofs.«109420_j4020089389121_2_alg».proof.Proof.Region1
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Gcn

section AnyF

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The aggregation over the graph's edges, as one function of the feature matrix and the three edge arrays (rows, columns,
    values): out-of-range-negative column numbers wrapped once, the rows of the features gathered at the columns, each
    scaled by its edge's value, and the scaled rows summed into the edge's row of a zero matrix. -/
def agg (y : (⟨S50000x128, .f32⟩ : BufTy).Contents (Elt F)) (x1 x2 : (⟨S800000, .i32⟩ : BufTy).Contents (Elt F))
    (x3 : (⟨S800000, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 x1)
    (mulf (broadcastInDim S800000x128 ![0, 1] bcast_S800000x1_S800000x128_0_1 (broadcastInDim S800000x1 ![0] bcast_S800000_S800000x1_0 x3))
      (Host.gather gather_S50000x128_S800000x1_S800000x128_1_0_n_n_0_1_1128 y
        (broadcastInDim S800000x1 ![0] bcast_S800000_S800000x1_0
          (select (cmpi .slt x2 (broadcastInDim S800000 ![] bcast_S_S800000 (constantI S_ 32 0#32)))
            (addi x2 (broadcastInDim S800000 ![] bcast_S_S800000 (constantI S_ 32 50000#32))) x2))))

/-- The first stretch of host operations leaves the aggregation of the input features in the first launch's operand. -/
theorem after0_v12 (Wv : Valuation τ sig (Elt F)) :
    StableHlo.after hostOps0 Wv (Proc.devRef .tc main_v12)
      = agg (Wv (Proc.devRef .tc main_arg0)) (Wv (Proc.devRef .tc main_arg1)) (Wv (Proc.devRef .tc main_arg2)) (Wv (Proc.devRef .tc main_arg3)) := by
  unfold hostOps0
  after_results
  rfl

/-- The second stretch leaves the aggregation of the first launch's result in the second launch's operand. -/
theorem after1_v26 (Wv : Valuation τ sig (Elt F)) :
    StableHlo.after hostOps1 Wv (Proc.devRef .tc main_v26)
      = agg (Wv (Proc.devRef .tc main_v13)) (Wv (Proc.devRef .tc main_arg1)) (Wv (Proc.devRef .tc main_arg2)) (Wv (Proc.devRef .tc main_arg3)) := by
  unfold hostOps1
  after_results
  rfl

/-- A buffer the first stretch does not write keeps its contents. -/
theorem after0_keep (Wv : Valuation τ sig (Elt F)) (b : Ref sig .tc)
    (hb : b = main_arg1 ∨ b = main_arg2 ∨ b = main_arg3 ∨ b = main_arg4 ∨ b = main_arg5) :
    StableHlo.after hostOps0 Wv (Proc.devRef .tc b) = Wv (Proc.devRef .tc b) := by
  unfold hostOps0
  rcases hb with rfl | rfl | rfl | rfl | rfl <;> after_results

/-- A buffer the second stretch does not write keeps its contents. -/
theorem after1_keep (Wv : Valuation τ sig (Elt F)) (b : Ref sig .tc)
    (hb : b = main_arg1 ∨ b = main_arg2 ∨ b = main_arg3 ∨ b = main_arg5) :
    StableHlo.after hostOps1 Wv (Proc.devRef .tc b) = Wv (Proc.devRef .tc b) := by
  unfold hostOps1
  rcases hb with rfl | rfl | rfl | rfl <;> after_results

-- the launch theorem's implicit arguments are found by unifying its conclusion with this one, which takes unfolding
-- plain definitions in a metavariable's type
set_option backward.isDefEq.respectTransparency.types false in
/-- Every weakly fair execution of the kernel program terminates, nothing faulting, with the result array at what the
    fold through the four stretches leaves there and the six argument arrays as launched: the generated frame's launch
    over the same segments, the last thread state read at the result array as well as at the arguments. -/
theorem run_main : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end AnyF

/-! ## The result array at the exact values -/

section AtIdeal

variable (m : (ℓ : Loc nD τ sig) → Buf (Elt Ideal) ℓ) (ρ : Dev nD → PrngReg)

/-- The hidden features: max(agg(x) * W1, 0). -/
def hidden (c : Dev nD) : (⟨S50000x128, .f32⟩ : BufTy).Contents (Elt Ideal) :=
  reluLayer (agg (m ((c.tc : Thread nD τ).loc main_arg0)) (m ((c.tc : Thread nD τ).loc main_arg1)) (m ((c.tc : Thread nD τ).loc main_arg2))
    (m ((c.tc : Thread nD τ).loc main_arg3))) (m ((c.tc : Thread nD τ).loc main_arg4))

/-- What the result array ends holding: the row softmax of agg(hidden) * W2. -/
def result (c : Dev nD) : Buf (Elt Ideal) ((c.tc : Thread nD τ).loc main_v27) :=
  softmaxLayer (agg (hidden m c) (m ((c.tc : Thread nD τ).loc main_arg1)) (m ((c.tc : Thread nD τ).loc main_arg2))
    (m ((c.tc : Thread nD τ).loc main_arg3))) (m ((c.tc : Thread nD τ).loc main_arg5))

/-- The first launch finds the aggregated input features and the first weight matrix. -/
theorem V1_v12 (c : Dev nD) : V1 m ρ c main_v12 = agg (m ((c.tc : Thread nD τ).loc main_arg0)) (m ((c.tc : Thread nD τ).loc main_arg1))
    (m ((c.tc : Thread nD τ).loc main_arg2)) (m ((c.tc : Thread nD τ).loc main_arg3)) :=
  after0_v12 (W0 m ρ c)
theorem V1_arg4 (c : Dev nD) : V1 m ρ c main_arg4 = m ((c.tc : Thread nD τ).loc main_arg4) :=
  after0_keep (W0 m ρ c) main_arg4 (by simp)

/-- It leaves the hidden features in its result array. -/
theorem W2_v13 (c : Dev nD) : W2 m ρ c (Proc.devRef .tc main_v13) = hidden m c := by
  refine (W2_arr m ρ c 2).trans ((Region0.final (V1 m ρ) c).trans ?_)
  rw [V1_v12 m ρ c, V1_arg4 m ρ c]
  rfl

theorem W2_arg1 (c : Dev nD) : W2 m ρ c (Proc.devRef .tc main_arg1) = m ((c.tc : Thread nD τ).loc main_arg1) :=
  (W2_of_ne m ρ c main_arg1 (by decide)).trans (after0_keep (W0 m ρ c) main_arg1 (by simp))
theorem W2_arg2 (c : Dev nD) : W2 m ρ c (Proc.devRef .tc main_arg2) = m ((c.tc : Thread nD τ).loc main_arg2) :=
  (W2_of_ne m ρ c main_arg2 (by decide)).trans (after0_keep (W0 m ρ c) main_arg2 (by simp))
theorem W2_arg3 (c : Dev nD) : W2 m ρ c (Proc.devRef .tc main_arg3) = m ((c.tc : Thread nD τ).loc main_arg3) :=
  (W2_of_ne m ρ c main_arg3 (by decide)).trans (after0_keep (W0 m ρ c) main_arg3 (by simp))
theorem W2_arg5 (c : Dev nD) : W2 m ρ c (Proc.devRef .tc main_arg5) = m ((c.tc : Thread nD τ).loc main_arg5) :=
  (W2_of_ne m ρ c main_arg5 (by decide)).trans (after0_keep (W0 m ρ c) main_arg5 (by simp))

/-- The second launch finds the aggregated hidden features and the second weight matrix. -/
theorem V3_v26 (c : Dev nD) : V3 m ρ c main_v26 = agg (hidden m c) (m ((c.tc : Thread nD τ).loc main_arg1))
    (m ((c.tc : Thread nD τ).loc main_arg2)) (m ((c.tc : Thread nD τ).loc main_arg3)) := by
  refine (after1_v26 (W2 m ρ c)).trans ?_
  rw [W2_v13 m ρ c, W2_arg1 m ρ c, W2_arg2 m ρ c, W2_arg3 m ρ c]
theorem V3_arg5 (c : Dev nD) : V3 m ρ c main_arg5 = m ((c.tc : Thread nD τ).loc main_arg5) :=
  (after1_keep (W2 m ρ c) main_arg5 (by simp)).trans (W2_arg5 m ρ c)

/-- So the fold leaves the row softmax of agg(hidden) * W2 in the result array. -/
theorem result_eq (c : Dev nD) : W4 m ρ c (Proc.devRef .tc main_v27) = result m c := by
  refine (W4_arr m ρ c 2).trans ((Region1.final (V3 m ρ) c).trans ?_)
  rw [V3_v26 m ρ c, V3_arg5 m ρ c]
  rfl

/-- The kernel program's run: the result array at result, the arguments unchanged. -/
theorem run : θ_run defs (onTc (τ := τ) (main (F := Ideal))) ⟨m, fun _ => 0, ρ⟩ (fun r => ∀ c : Dev nD,
      r.2.mem ((c.tc : Thread nD τ).loc main_v27) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_eq m ρ c), (h c).2⟩) (run_main m ρ)

end AtIdeal

end Cert.KernelIdeal.Run

end
-- ==== Proof.LibHostMaxTrailing.lean ====
/-
  The host's maximum over the trailing axis of a rank-3 array, read at an entry, at the exact values.

  A `stablehlo.reduce` with a `maximum` body over axis 2 of an array [a, b, c] gives, at `(p, q)`, the fold of `max`
  from the initial value's element over `k` of the source at `(p, q, k)`: `max` is commutative and associative, so the
  order in which the host combines the elements does not matter. (A row maximum as `jnp.max(x, axis=-1)` or the one
  inside `jax.nn.softmax` lowers to this.) The same for a rank-2 array [a, b] at `p`.
-/
import Idealize.ShloMosaic.PureOps.Reduce
import Idealize.ShloMosaic.PureOps.Ideal.Laws
import Idealize.ShloMosaic.Lib.ValueIdx

noncomputable section

namespace Cert.Lib.HostMaxTrailing

open Idealize.ShloMosaic Idealize.ShloMosaic.ValueIdx

/-- Reducing [a, b, c] over its trailing axis: the result index `(p, q)` with `k` put back on that axis is `(p, q, k)`. -/
theorem lift3 {a b c : ℕ} (h : (⟨3, ![a, b, c]⟩ : Shape).Reduces [(2 : Fin 3)] ⟨2, ![a, b]⟩)
    (p : Fin a) (q : Fin b) (k : Fin c) : h.lift (ix2 p q) k = ix3 p q k := by
  funext ax
  apply Fin.ext
  match ax with
  | ⟨0, _⟩ => rfl
  | ⟨1, _⟩ => rfl
  | ⟨2, _⟩ => rfl

/-- The host's maximum of [a, b, c] over its trailing axis, at `(p, q)`: the fold of `max` from the initial value over
    the entries `(p, q, ·)`. -/
theorem hostMax_trailing3 {φ : FTy} {a b c : ℕ} {u : Shape} (y : FVec Ideal ⟨3, ![a, b, c]⟩ φ) (init : u.Idx → Ideal φ)
    (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < u.numel) (p : Fin a) (q : Fin b) :
    Host.reduce FloatOps.maximumf y init h' hu (ix2 p q)
      = (Finset.univ : Finset (Fin c)).fold max (init (Shape.Idx.first hu)) (fun k => y (ix3 p q k)) := by
  refine (Host.reduce_eq_fold_single FloatOps.maximumf y init h' h hu (ix2 p q)).trans ?_
  exact congrArg (Finset.fold max _ · Finset.univ) (funext fun k => congrArg y (lift3 h p q k))

/-- Reducing [a, b] over its trailing axis: the result index `p` with `k` put back is `(p, k)`. -/
theorem lift2 {a b : ℕ} (h : (⟨2, ![a, b]⟩ : Shape).Reduces [(1 : Fin 2)] ⟨1, ![a]⟩)
    (p : Fin a) (k : Fin b) : h.lift (ix1 p) k = ix2 p k := by
  funext ax
  apply Fin.ext
  match ax with
  | ⟨0, _⟩ => rfl
  | ⟨1, _⟩ => rfl

/-- The host's maximum of [a, b] over its trailing axis, at `p`: the fold of `max` from the initial value over row `p`. -/
theorem hostMax_trailing2 {φ : FTy} {a b : ℕ} {u : Shape} (y : FVec Ideal ⟨2, ![a, b]⟩ φ) (init : u.Idx → Ideal φ)
    (h' : (⟨2, ![a, b]⟩ : Shape).ReducesTo [(1 : Fin 2)] ⟨1, ![a]⟩)
    (h : (⟨2, ![a, b]⟩ : Shape).Reduces [(1 : Fin 2)] ⟨1, ![a]⟩) (hu : 0 < u.numel) (p : Fin a) :
    Host.reduce FloatOps.maximumf y init h' hu (ix1 p)
      = (Finset.univ : Finset (Fin b)).fold max (init (Shape.Idx.first hu)) (fun k => y (ix2 p k)) := by
  refine (Host.reduce_eq_fold_single FloatOps.maximumf y init h' h hu (ix1 p)).trans ?_
  exact congrArg (Finset.fold max _ · Finset.univ) (funext fun k => congrArg y (lift2 h p k))

end Cert.Lib.HostMaxTrailing

end
-- ==== Proof.RefValue.lean ====
/-
  The reference program, read stage by stage at the exact values: its first layer (whole-matrix product, then max
  with 0) is max(X * W, 0) of the aggregated features; its second aggregation is the first one applied to that; its
  last stages (whole-matrix product, row maximum, subtract, exp, row sum, divide) are the row softmax of X * W.
  The aggregation itself (gather, scale, segment sum) stays folded.
-/
import proofs.«109420_j4020089389121_2_alg».proof.Proof.Gen.ReferenceIdeal.Read
import proofs.«109420_j4020089389121_2_alg».proof.Proof.Spec
import proofs.«109420_j4020089389121_2_alg».proof.Proof.LibHostMaxTrailing

noncomputable section

namespace Cert.ReferenceIdeal.RefValue

open Cert.ReferenceIdeal Cert.ReferenceIdeal.Gen Cert.ReferenceIdeal.Read Idealize.ShloMosaic Idealize.ShloMosaic.ValueIdx Cert.Gcn

variable (x0 : (⟨S50000x128, .f32⟩ : BufTy).Contents (Elt Ideal)) (x1 x2 : (⟨S800000, .i32⟩ : BufTy).Contents (Elt Ideal))
  (x3 : (⟨S800000, .f32⟩ : BufTy).Contents (Elt Ideal)) (x4 : (⟨S128x128, .f32⟩ : BufTy).Contents (Elt Ideal))
  (x5 : (⟨S128x64, .f32⟩ : BufTy).Contents (Elt Ideal))

/-- The first layer: max(X * W1, 0) of the aggregated input features. -/
theorem layer1 : val_main_v14 (F := Ideal) x0 x1 x2 x3 x4 = reluLayer (val_main_v12 (F := Ideal) x0 x1 x2 x3) x4 := by
  funext i
  obtain ⟨p, q, rfl⟩ : ∃ (p : Fin 50000) (q : Fin 128), i = ix2 p q := ⟨i 0, i 1, eq_ix2 i⟩
  rw [reluLayer_ix2, val_main_v14_apply, val_main_v13_apply, val_main_call0_v0_apply, val_main_call0_cst_apply]
  unfold reluAt prodAt
  show max _ _ = max _ _
  refine congrArg₂ max (Finset.sum_congr rfl fun k _ => ?_) rfl
  have el : lidx_main_v13 (ix2 p q) k = ix2 p k := funext fun a => Fin.ext (by match a with | ⟨0, _⟩ => rfl | ⟨1, _⟩ => rfl)
  have er : ridx_main_v13 (ix2 p q) k = ix2 k q := funext fun a => Fin.ext (by match a with | ⟨0, _⟩ => rfl | ⟨1, _⟩ => rfl)
  rw [el, er]

/-- The second aggregation is the first one, applied to the hidden features in place of the input features. -/
theorem agg2 : val_main_v27 (F := Ideal) x0 x1 x2 x3 x4 = val_main_v12 (F := Ideal) (val_main_v14 (F := Ideal) x0 x1 x2 x3 x4) x1 x2 x3 := rfl

end Cert.ReferenceIdeal.RefValue

end
-- ==== Proof.RefSoftmax.lean ====
/-
  The reference program's last stages, read at the exact values: the whole-matrix product with the second weight
  matrix, the row maximum (joined with -inf), subtract, exp, the row sum, divide. Entry (p, q) is exp (l(p,q) - m(p))
  over the sum along row p of exp (l(p,j) - m(p)): the row softmax of the product, of whatever matrix the second
  aggregation produced.
-/
import proofs.«109420_j4020089389121_2_alg».proof.Proof.Gen.ReferenceIdeal.Read
import proofs.«109420_j4020089389121_2_alg».proof.Proof.Spec
import proofs.«109420_j4020089389121_2_alg».proof.Proof.LibHostMaxTrailing

noncomputable section

namespace Cert.ReferenceIdeal.RefSoftmax

open Cert.ReferenceIdeal Cert.ReferenceIdeal.Gen Cert.ReferenceIdeal.Read Idealize.ShloMosaic Idealize.ShloMosaic.ValueIdx Cert.Gcn

variable (x0 : (⟨S50000x128, .f32⟩ : BufTy).Contents (Elt Ideal)) (x1 x2 : (⟨S800000, .i32⟩ : BufTy).Contents (Elt Ideal))
  (x3 : (⟨S800000, .f32⟩ : BufTy).Contents (Elt Ideal)) (x4 : (⟨S128x128, .f32⟩ : BufTy).Contents (Elt Ideal))
  (x5 : (⟨S128x64, .f32⟩ : BufTy).Contents (Elt Ideal))

/-- The logits: entry (p, q) of the product of the second aggregation's result with the second weight matrix. -/
theorem logits_apply (p : Fin 50000) (q : Fin 64) :
    val_main_v28 (F := Ideal) x0 x1 x2 x3 x4 x5 (ix2 p q) = prodAt (val_main_v27 (F := Ideal) x0 x1 x2 x3 x4) x5 p q := by
  rw [val_main_v28_apply]
  unfold prodAt
  refine Finset.sum_congr rfl fun k _ => ?_
  have el : lidx_main_v28 (ix2 p q) k = ix2 p k := funext fun a => Fin.ext (by match a with | ⟨0, _⟩ => rfl | ⟨1, _⟩ => rfl)
  have er : ridx_main_v28 (ix2 p q) k = ix2 k q := funext fun a => Fin.ext (by match a with | ⟨0, _⟩ => rfl | ⟨1, _⟩ => rfl)
  rw [el, er]

/-- The row maximum, joined with -inf. -/
theorem top_apply (p : Fin 50000) :
    val_main_v31 (F := Ideal) x0 x1 x2 x3 x4 x5 (ix1 p) = rowTop (val_main_v27 (F := Ideal) x0 x1 x2 x3 x4) x5 p := by
  rw [val_main_v31_apply, val_main_v30_apply, val_main_cst_5_apply]
  unfold rowTop
  show max _ _ = max _ _
  refine congrArg₂ max rfl ?_
  unfold val_main_v29
  refine (Cert.Lib.HostMaxTrailing.hostMax_trailing2 _ _ reducesTo_S50000x64_S50000_d1 (by decide) h_S_ p).trans ?_
  rw [val_main_cst_4_apply]
  exact congrArg (Finset.fold max _ · Finset.univ) (funext fun k => logits_apply x0 x1 x2 x3 x4 x5 p k)

/-- The row maximum spread back over the row. -/
theorem topSpread_apply (p : Fin 50000) (q : Fin 64) :
    val_main_v33 (F := Ideal) x0 x1 x2 x3 x4 x5 (ix2 p q) = rowTop (val_main_v27 (F := Ideal) x0 x1 x2 x3 x4) x5 p := by
  rw [val_main_v33_apply, val_main_v32_apply]
  have e : idx_main_v32 (idx_main_v33 (ix2 p q)) = ix1 p := funext fun a => Fin.ext (by match a with | ⟨0, _⟩ => rfl)
  rw [e, top_apply]

/-- exp of a logit less its row's maximum. -/
theorem exp_apply (p : Fin 50000) (q : Fin 64) :
    val_main_v35 (F := Ideal) x0 x1 x2 x3 x4 x5 (ix2 p q) = expAt (val_main_v27 (F := Ideal) x0 x1 x2 x3 x4) x5 p q := by
  rw [val_main_v35_apply, val_main_v34_apply, logits_apply, topSpread_apply, Ideal.hostUnary_exp_def, Ideal.subf_def]
  unfold expAt
  exact rfl

/-- The row sum of the exps. -/
theorem sum_apply (p : Fin 50000) :
    val_main_v36 (F := Ideal) x0 x1 x2 x3 x4 x5 (ix1 p) = ∑ j : Fin 64, expAt (val_main_v27 (F := Ideal) x0 x1 x2 x3 x4) x5 p j := by
  rw [val_main_v36_apply, val_main_cst_6_apply]
  show Ideal.ofBits .f32 0x00000000#32 + _ = _
  rw [Ideal.ofBits_zero_f32, zero_add]
  refine Finset.sum_congr rfl fun j _ => ?_
  have e : idx_main_v36 (ix1 p) j = ix2 p j := funext fun a => Fin.ext (by match a with | ⟨0, _⟩ => rfl | ⟨1, _⟩ => rfl)
  rw [e, exp_apply]

/-- The reference's result: the row softmax of the product of the second aggregation's result with the second weight matrix. -/
theorem layer2 : val_main_v39 (F := Ideal) x0 x1 x2 x3 x4 x5 = softmaxLayer (val_main_v27 (F := Ideal) x0 x1 x2 x3 x4) x5 := by
  funext i
  obtain ⟨p, q, rfl⟩ : ∃ (p : Fin 50000) (q : Fin 64), i = ix2 p q := ⟨i 0, i 1, eq_ix2 i⟩
  rw [softmaxLayer_ix2, val_main_v39_apply, val_main_v38_apply, val_main_v37_apply, exp_apply]
  have e : idx_main_v37 (idx_main_v38 (ix2 p q)) = ix1 p := funext fun a => Fin.ext (by match a with | ⟨0, _⟩ => rfl)
  rw [e, sum_apply, Ideal.hostDivf_def]
  unfold softmaxAt
  exact rfl

end Cert.ReferenceIdeal.RefSoftmax

end
-- ==== Proof.Bridge.lean ====
/-
  The two programs compute one function. Both aggregate with the same host operations (the reference's stage and the
  kernel program's fold are the same composition of gather, scale and segment sum, under each program's own names for
  the dimension records), and then both apply the same two row-wise layers: so the reference's result, stage by stage,
  is  softmax-rows( agg( max( agg(x) * W1, 0 ) ) * W2 ),  the function the kernel program's run leaves.
-/
import proofs.«109420_j4020089389121_2_alg».proof.Proof.KernelRun
import proofs.«109420_j4020089389121_2_alg».proof.Proof.RefValue
import proofs.«109420_j4020089389121_2_alg».proof.Proof.RefSoftmax

noncomputable section

namespace Cert.Bridge

open Idealize.ShloMosaic Cert.Gcn

/-- The reference's aggregation stage is the kernel program's: the same operations on the same arrays. -/
theorem agg_eq (y : (⟨Cert.ReferenceIdeal.S50000x128, .f32⟩ : BufTy).Contents (Elt Ideal))
    (x1 x2 : (⟨Cert.ReferenceIdeal.S800000, .i32⟩ : BufTy).Contents (Elt Ideal))
    (x3 : (⟨Cert.ReferenceIdeal.S800000, .f32⟩ : BufTy).Contents (Elt Ideal)) :
    Cert.ReferenceIdeal.Read.val_main_v12 (F := Ideal) y x1 x2 x3 = Cert.KernelIdeal.Run.agg (F := Ideal) y x1 x2 x3 := rfl

/-- The reference's result as the two layers over the shared aggregation. -/
theorem reference_eq (x0 : (⟨Cert.ReferenceIdeal.S50000x128, .f32⟩ : BufTy).Contents (Elt Ideal))
    (x1 x2 : (⟨Cert.ReferenceIdeal.S800000, .i32⟩ : BufTy).Contents (Elt Ideal))
    (x3 : (⟨Cert.ReferenceIdeal.S800000, .f32⟩ : BufTy).Contents (Elt Ideal))
    (x4 : (⟨Cert.ReferenceIdeal.S128x128, .f32⟩ : BufTy).Contents (Elt Ideal))
    (x5 : (⟨Cert.ReferenceIdeal.S128x64, .f32⟩ : BufTy).Contents (Elt Ideal)) :
    Cert.ReferenceIdeal.Read.val_main_v39 (F := Ideal) x0 x1 x2 x3 x4 x5
      = softmaxLayer (Cert.KernelIdeal.Run.agg (F := Ideal) (reluLayer (Cert.KernelIdeal.Run.agg (F := Ideal) x0 x1 x2 x3) x4) x1 x2 x3) x5 := by
  rw [Cert.ReferenceIdeal.RefSoftmax.layer2, Cert.ReferenceIdeal.RefValue.agg2, Cert.ReferenceIdeal.RefValue.layer1, agg_eq, agg_eq]

end Cert.Bridge

end
-- ==== Proof.lean ====
/-
  A two-layer graph convolution over 50000 nodes and 800000 edges: aggregate the features over the edges, multiply by
  a weight matrix and take max with 0; aggregate again, multiply by a second weight matrix and take the softmax of each
  row. The kernel program does each product-and-activation in a launch of its own, over row blocks (5000 rows, then
  2000 rows), the aggregations on the host between them; the reference does everything on the host over the whole
  matrices.

  At the exact values both compute  softmax-rows( agg( max( agg(x) * W1, 0 ) ) * W2 ):
  - a product entry is the sum over the contracted coordinate in both (the roundings to bf16 before the matrix unit
    are the identity on extended reals, and the accumulator starts from zero);
  - max with 0 and the row softmax work on one row at a time, so a block of rows gives the same entries as the
    whole matrix (Spec, Region0, Region1), and the blocks tile the rows;
  - the aggregation is the same composition of host operations in both programs and is never opened (Bridge).
  No law of arithmetic is needed beyond that, so the inputs' finiteness is not used.

  The three frames are the generated ones (the reference's is its generated run with the result dropped); the ideal
  pass rewrote nothing, so the kernel program's idealization is its own text.
-/
import proofs.«109420_j4020089389121_2_alg».proof.Defs
import proofs.«109420_j4020089389121_2_alg».proof.Proof.Gen.Kernel
import proofs.«109420_j4020089389121_2_alg».proof.Proof.Gen.Kernel.Skeleton
import proofs.«109420_j4020089389121_2_alg».proof.Proof.Gen.Kernel.Launch
import proofs.«109420_j4020089389121_2_alg».proof.Proof.Gen.Kernel.Points
import proofs.«109420_j4020089389121_2_alg».proof.Proof.Gen.Kernel.Frame
import proofs.«109420_j4020089389121_2_alg».proof.Proof.Gen.KernelIdeal
import proofs.«109420_j4020089389121_2_alg».proof.Proof.Gen.KernelIdeal.Skeleton
import proofs.«109420_j4020089389121_2_alg».proof.Proof.Gen.KernelIdeal.Launch
import proofs.«109420_j4020089389121_2_alg».proof.Proof.Gen.KernelIdeal.Points
import proofs.«109420_j4020089389121_2_alg».proof.Proof.Gen.KernelIdeal.Frame
import proofs.«109420_j4020089389121_2_alg».proof.Proof.Gen.ReferenceIdeal
import proofs.«109420_j4020089389121_2_alg».proof.Proof.Gen.Pre_finite_inputs
import proofs.«109420_j4020089389121_2_alg».proof.Proof.Gen.ReferenceIdeal.Run
import proofs.«109420_j4020089389121_2_alg».proof.Proof.Gen.ReferenceIdeal.Read
import proofs.«109420_j4020089389121_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the result array at
    softmax-rows( agg( max( agg(x) * W1, 0 ) ) * W2 ) of the arguments. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v39_eq, h0, h1, h2, h3, h4, h5]
  exact Cert.Bridge.reference_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
